-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x64 .f32) (main_arg1 : IVec S2x800000 32) (main_arg2 : FVec F S64x128 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S64x64 : Shape := ⟨2, ![64, 64]⟩
abbrev S1x64 : Shape := ⟨2, ![1, 64]⟩
abbrev S5000x64 : Shape := ⟨2, ![5000, 64]⟩

abbrev nBuf : Space → Nat
  | .hbm => 38
  | .vmem => 9
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S64x64, .f32⟩
  | .hbm, ⟨35, _⟩ => ⟨S64x64, .f32⟩
  | .hbm, ⟨36, _⟩ => ⟨S1x64, .f32⟩
  | .hbm, ⟨37, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S64x128_S64x64_0_0 : S64x128.Slices ![0, 0] S64x64
  slices_S64x128_S64x64_0_64 : S64x128.Slices ![0, 64] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S50000x128 : Shape := ⟨2, ![50000, 128]⟩
abbrev S128x64 : Shape := ⟨2, ![128, 64]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x64, .f32⟩
  | .hbm, ⟨33, _⟩ => ⟨S50000x64, .f32⟩
  | .hbm, ⟨34, _⟩ => ⟨S50000x128, .f32⟩
  | .hbm, ⟨35, _⟩ => ⟨S128x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Payload.lean ====
/-
  What the kernel body stores, at row `r` and channel `o` of a row block, as a function of the five blocks it loads:
  a block `v0` of node features and `v2` of aggregated features (5000 rows each), the two halves `v5`, `v8` of the weight
  matrix and the bias row `v16`:

      (Σ_{k<64} v0[r, k] · v5[o, k]  +  Σ_{k<64} v2[r, k] · v8[o, k])  +  v16[0, o].

  On the extended reals the narrowing of a block to a shorter float format is the identity, a block product into the
  zero accumulator is the plain sum of the 64 products, the transposed half read at `(k, o)` is the half at `(o, k)`,
  and the bias row broadcast over the rows reads its one row.
-/
import proofs.«144574_j5592047419417_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The block product's operand indices -/

/-- The left operand is read in the output's row. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- … at the contracted position along its columns. -/
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q

/-- The right operand is read at the contracted position along its rows … -/
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q

/-- … in the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## The non-pointwise operations at an index -/

/-- A [5000, 64] × [64, 64] block product into the zero accumulator, at row `r` and column `o`: the sum over the 64
    contracted positions of the products, with no accumulator term. -/
theorem product_apply {φ₁ φ₂ : FTy} (l : FVec Ideal S5000x64 φ₁) (rt : FVec Ideal S64x64 φ₂) (r : Fin 5000) (o : Fin 64) :
    matmul dot_S5000x64_S64x64_S5000x64_1_0_0_1_n_n none l rt (constant (F := Ideal) S5000x64 .f32 0x00000000#32) (ix2 r o)
      = ∑ k : Fin 64, l (ix2 r k) * rt (ix2 k o) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r o)
      ((contrEquiv1 dot_S5000x64_S64x64_S5000x64_1_0_0_1_n_n 64 rfl rfl).symm k) = ix2 r k :=
    funext fun a => Fin.ext (by
      match a with
      | ⟨0, _⟩ => exact lhs_row _ _
      | ⟨1, _⟩ => exact (lhs_col _ _).trans hk)
  have er : dot_S5000x64_S64x64_S5000x64_1_0_0_1_n_n.rhsIdx (ix2 r o)
      ((contrEquiv1 dot_S5000x64_S64x64_S5000x64_1_0_0_1_n_n 64 rfl rfl).symm k) = ix2 k o :=
    funext fun a => Fin.ext (by
      match a with
      | ⟨0, _⟩ => exact (rhs_row _ _).trans hk
      | ⟨1, _⟩ => exact rhs_col _ _)
  rw [el, er]

/-- The transposed half at `(k, o)` is the half at `(o, k)`. -/
theorem transposed_apply {φ : FTy} (w : FVec Ideal S64x64 φ) (k o : Fin 64) :
    transpose S64x64 [1, 0] w transposes_S64x64_p1_0_S64x64 (ix2 k o) = w (ix2 o k) :=
  transpose_apply [1, 0] w transposes_S64x64_p1_0_S64x64 (ix2 k o) (ix2 o k) (fun b => match b with
    | ⟨0, _⟩ => rfl
    | ⟨1, _⟩ => rfl)

/-! ## The payload -/

/-- The stored value at row `r` and channel `o` of the block. -/
theorem pay_apply (v0 v2 : Vec Ideal S5000x64 .f32) (v5 v8 : Vec Ideal S64x64 .f32) (v16 : Vec Ideal S1x64 .f32)
    (r : Fin 5000) (o : Fin 64) :
    k0_pay1 v0 v2 v5 v8 v16 (ix2 r o)
      = ((∑ k : Fin 64, v0 (ix2 r k) * v5 (ix2 o k)) + ∑ k : Fin 64, v2 (ix2 r k) * v8 (ix2 o k))
        + v16 (ix2 (0 : Fin 1) o) := by
  simp only [k0_pay1, shapeCast_self]
  rw [addf_apply, addf_apply, product_apply, product_apply, broadcastTo_1b_ab_apply]
  refine congrArg (· + v16 (ix2 (0 : Fin 1) o)) (congrArg₂ (· + ·) ?_ ?_)
  · exact Finset.sum_congr rfl fun k _ =>
      congrArg (v0 (ix2 r k) * ·) (transposed_apply (φ := .bf16) (truncf .bf16 v5 bitsLt_bf16_f32) k o)
  · exact Finset.sum_congr rfl fun k _ =>
      congrArg (v2 (ix2 r k) * ·) (transposed_apply (φ := .bf16) (truncf .bf16 v8 bitsLt_bf16_f32) k o)

end Cert.KernelIdeal.Body

end
-- ==== Proof.ConcatLinear.lean ====
/-
  The function of the node features `x`, the aggregated neighbour features `a`, the weight matrix `W` and the bias `b`
  that both programs compute, index by index on the extended reals:

      out[n, o] = (Σ_{k<64} x[n, k] · W[o, k]  +  Σ_{k<64} a[n, k] · W[o, 64 + k])  +  b[o].

  `ofWhole` states it over the whole weight matrix [64, 128] and the bias vector [64]. `ofHalves` states it over the
  two column halves of the weight matrix, each [64, 64], and the bias as one row [1, 64]: the five arrays a row block
  of the output is computed from. `ofHalves_eq_ofWhole` says the two agree when the halves are the columns `k` and
  `64 + k` of `W` and the row is `b`.

  `sum_split`: a sum over 128 columns is the sum over the left 64 plus the sum over the right 64. This is the one
  algebraic law between the two programs — the product of the concatenation `[x | a]` with `Wᵀ` is the sum of the two
  half products — and it holds in every commutative monoid, so on the extended reals with no finiteness assumption:
  the same 128 products are added on both sides, only grouped differently.
-/
import Idealize.ShloMosaic.PureOps.Ideal
import Idealize.ShloMosaic.Lib.ValueIdx

noncomputable section

namespace Cert.ConcatLinear

open Idealize.ShloMosaic Idealize.ShloMosaic.ValueIdx

/-- Node features, and the output: 50000 nodes by 64 channels. -/
abbrev Nodes : Shape := ⟨2, ![50000, 64]⟩
/-- The weight matrix: 64 output channels by 128 = 64 + 64 input channels. -/
abbrev Weights : Shape := ⟨2, ![64, 128]⟩
/-- One column half of the weight matrix. -/
abbrev Half : Shape := ⟨2, ![64, 64]⟩
/-- The bias vector. -/
abbrev Bias : Shape := ⟨1, ![64]⟩
/-- The bias as one row. -/
abbrev BiasRow : Shape := ⟨2, ![1, 64]⟩

/-- Column `k` of the weight matrix: column `k` of its left half. -/
abbrev lo (k : Fin 64) : Fin 128 := Fin.castAdd 64 k
/-- Column `64 + k` of the weight matrix: column `k` of its right half. -/
abbrev hi (k : Fin 64) : Fin 128 := Fin.natAdd 64 k

theorem lo_val (k : Fin 64) : (lo k).val = k.val := rfl
theorem hi_val (k : Fin 64) : (hi k).val = 64 + k.val := rfl

/-- The output from the two halves of the weight matrix and the bias row. -/
def ofHalves (x a : Nodes.Idx → EReal) (w₁ w₂ : Half.Idx → EReal) (b : BiasRow.Idx → EReal) : Nodes.Idx → EReal :=
  fun i => ((∑ k : Fin 64, x (ix2 (i 0) k) * w₁ (ix2 (i 1) k)) + ∑ k : Fin 64, a (ix2 (i 0) k) * w₂ (ix2 (i 1) k))
    + b (ix2 (0 : Fin 1) (i 1))

/-- The output from the whole weight matrix and the bias vector. -/
def ofWhole (x a : Nodes.Idx → EReal) (W : Weights.Idx → EReal) (b : Bias.Idx → EReal) : Nodes.Idx → EReal :=
  fun i => ((∑ k : Fin 64, x (ix2 (i 0) k) * W (ix2 (i 1) (lo k))) + ∑ k : Fin 64, a (ix2 (i 0) k) * W (ix2 (i 1) (hi k)))
    + b (ix1 (i 1))

/-- `ofHalves` at node `n` and channel `o`. -/
theorem ofHalves_apply (x a : Nodes.Idx → EReal) (w₁ w₂ : Half.Idx → EReal) (b : BiasRow.Idx → EReal) (n : Fin 50000) (o : Fin 64) :
    ofHalves x a w₁ w₂ b (ix2 n o)
      = ((∑ k : Fin 64, x (ix2 n k) * w₁ (ix2 o k)) + ∑ k : Fin 64, a (ix2 n k) * w₂ (ix2 o k)) + b (ix2 (0 : Fin 1) o) := rfl

/-- `ofWhole` at node `n` and channel `o`. -/
theorem ofWhole_apply (x a : Nodes.Idx → EReal) (W : Weights.Idx → EReal) (b : Bias.Idx → EReal) (n : Fin 50000) (o : Fin 64) :
    ofWhole x a W b (ix2 n o)
      = ((∑ k : Fin 64, x (ix2 n k) * W (ix2 o (lo k))) + ∑ k : Fin 64, a (ix2 n k) * W (ix2 o (hi k))) + b (ix1 o) := rfl

/-- With the halves the columns `k` and `64 + k` of `W`, and the row `b`, the two forms are one function. -/
theorem ofHalves_eq_ofWhole (x a : Nodes.Idx → EReal) (W : Weights.Idx → EReal) (b : Bias.Idx → EReal)
    (w₁ w₂ : Half.Idx → EReal) (b₂ : BiasRow.Idx → EReal)
    (h₁ : ∀ (o k : Fin 64), w₁ (ix2 o k) = W (ix2 o (lo k)))
    (h₂ : ∀ (o k : Fin 64), w₂ (ix2 o k) = W (ix2 o (hi k)))
    (hb : ∀ o : Fin 64, b₂ (ix2 (0 : Fin 1) o) = b (ix1 o)) :
    ofHalves x a w₁ w₂ b₂ = ofWhole x a W b := by
  funext i
  unfold ofHalves ofWhole
  rw [hb (i 1)]
  congr 2
  · exact Finset.sum_congr rfl fun k _ => by rw [h₁ (i 1) k]
  · exact Finset.sum_congr rfl fun k _ => by rw [h₂ (i 1) k]

/-- A sum over the 128 columns is the sum over the left 64 plus the sum over the right 64. -/
theorem sum_split {M : Type*} [AddCommMonoid M] (f : Fin 128 → M) :
    ∑ k : Fin 128, f k = (∑ k : Fin 64, f (lo k)) + ∑ k : Fin 64, f (hi k) :=
  Fin.sum_univ_add (a := 64) (b := 64) f

end Cert.ConcatLinear

end
-- ==== Proof.RowBlocks.lean ====
/-
  What one grid point writes back. The grid has ten points; point `t` is handed rows `5000 t … 5000 t + 4999` of the
  node features and of the aggregated features, the two weight halves and the bias row whole, and writes back rows
  `5000 t … 5000 t + 4999` of the output. What it writes at row `r` of its block is the body's value there
  (`Body.pay_apply`), which is `ConcatLinear.ofHalves` of the five arrays the region finds at row `5000 t + r` of the
  array: so the write-back of point `t` is block `t` of ONE function `found` of those arrays (`flushed_eq`).
-/
import proofs.«144574_j5592047419417_1_alg».proof.Proof.Gen.KernelIdeal.Value
import proofs.«144574_j5592047419417_1_alg».proof.Proof.Payload
import proofs.«144574_j5592047419417_1_alg».proof.Proof.ConcatLinear
import Idealize.ShloMosaic.Lib.Pipeline.Value
import Idealize.ShloMosaic.Lib.ValueIdx

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.ConcatLinear
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The index maps, decided over the ten grid points

The node features, the aggregated features and the output sit at row block `t`, column block 0; the two weight halves
and the bias row at block (0, 0) at every point. -/

/-- The node features' block at point `t` is row block `t`. -/
theorem idx_nodes : ∀ t : Fin cfg0.N, win0_0.index t (0 : Fin 2) = t.val ∧ win0_0.index t (1 : Fin 2) = 0 :=
  (by decide +kernel : ∀ t : Fin grid0.N, _)

/-- The aggregated features' block at point `t` is row block `t`. -/
theorem idx_aggr : ∀ t : Fin cfg0.N, win0_1.index t (0 : Fin 2) = t.val ∧ win0_1.index t (1 : Fin 2) = 0 :=
  (by decide +kernel : ∀ t : Fin grid0.N, _)

/-- The left weight half is one block. -/
theorem idx_left : ∀ t : Fin cfg0.N, win0_2.index t (0 : Fin 2) = 0 ∧ win0_2.index t (1 : Fin 2) = 0 :=
  (by decide +kernel : ∀ t : Fin grid0.N, _)

/-- The right weight half is one block. -/
theorem idx_right : ∀ t : Fin cfg0.N, win0_3.index t (0 : Fin 2) = 0 ∧ win0_3.index t (1 : Fin 2) = 0 :=
  (by decide +kernel : ∀ t : Fin grid0.N, _)

/-- The bias row is one block. -/
theorem idx_bias : ∀ t : Fin cfg0.N, win0_4.index t (0 : Fin 2) = 0 ∧ win0_4.index t (1 : Fin 2) = 0 :=
  (by decide +kernel : ∀ t : Fin grid0.N, _)

/-- The output's block at point `t` is row block `t`. -/
theorem idx_out : ∀ t : Fin cfg0.N, win0_5.index t (0 : Fin 2) = t.val ∧ win0_5.index t (1 : Fin 2) = 0 :=
  (by decide +kernel : ∀ t : Fin grid0.N, _)

/-! ## A block read where its array holds it

Stated for ANY contents `A` of the window's array: a block is a rectangle of the array, so the read depends on the
index map only, not on what the array holds. -/

/-- Row `r` of the first window's block at point `t` is row `5000 t + r` of its array, whatever the array holds. -/
theorem nodes_read (c : Dev nD) (t : Fin cfg0.N) (A : Buf (Elt Ideal) ((c : Thread nD τ).loc (Pipeline.arrRef spec0 (0 : Fin cfg0.W))))
    (r : Fin 5000) (k : Fin 64) (n : Fin 50000) (hn : n.val = 5000 * t.val + r.val) :
    (((cfg0.win 0).blk t).view.read (Elt Ideal) A : Vec Ideal S5000x64 .f32) (ix2 r k) = (A : S50000x64.Idx → EReal) (ix2 n k) := by
  obtain ⟨e0, e1⟩ := idx_nodes t
  show (A : S50000x64.Idx → EReal) (((cfg0.win 0).blk t).view.emb (ix2 r k)) = _
  exact congrArg A (funext fun a => Fin.ext (by
    match a with
    | ⟨0, _⟩ => show win0_0.index t (0 : Fin 2) * 5000 + 1 * r.val = n.val; rw [e0, hn]; omega
    | ⟨1, _⟩ => show win0_0.index t (1 : Fin 2) * 64 + 1 * k.val = k.val; rw [e1]; omega))

/-- Row `r` of the second window's block at point `t` is row `5000 t + r` of its array. -/
theorem aggr_read (c : Dev nD) (t : Fin cfg0.N) (A : Buf (Elt Ideal) ((c : Thread nD τ).loc (Pipeline.arrRef spec0 (1 : Fin cfg0.W))))
    (r : Fin 5000) (k : Fin 64) (n : Fin 50000) (hn : n.val = 5000 * t.val + r.val) :
    (((cfg0.win 1).blk t).view.read (Elt Ideal) A : Vec Ideal S5000x64 .f32) (ix2 r k) = (A : S50000x64.Idx → EReal) (ix2 n k) := by
  obtain ⟨e0, e1⟩ := idx_aggr t
  show (A : S50000x64.Idx → EReal) (((cfg0.win 1).blk t).view.emb (ix2 r k)) = _
  exact congrArg A (funext fun a => Fin.ext (by
    match a with
    | ⟨0, _⟩ => show win0_1.index t (0 : Fin 2) * 5000 + 1 * r.val = n.val; rw [e0, hn]; omega
    | ⟨1, _⟩ => show win0_1.index t (1 : Fin 2) * 64 + 1 * k.val = k.val; rw [e1]; omega))

/-- The third window hands its [64, 64] array whole at every point. -/
theorem left_read (c : Dev nD) (t : Fin cfg0.N) (A : Buf (Elt Ideal) ((c : Thread nD τ).loc (Pipeline.arrRef spec0 (2 : Fin cfg0.W))))
    (o k : Fin 64) :
    (((cfg0.win 2).blk t).view.read (Elt Ideal) A : Vec Ideal S64x64 .f32) (ix2 o k) = (A : S64x64.Idx → EReal) (ix2 o k) := by
  obtain ⟨e0, e1⟩ := idx_left t
  show (A : S64x64.Idx → EReal) (((cfg0.win 2).blk t).view.emb (ix2 o k)) = _
  exact congrArg A (funext fun a => Fin.ext (by
    match a with
    | ⟨0, _⟩ => show win0_2.index t (0 : Fin 2) * 64 + 1 * o.val = o.val; rw [e0]; omega
    | ⟨1, _⟩ => show win0_2.index t (1 : Fin 2) * 64 + 1 * k.val = k.val; rw [e1]; omega))

/-- The fourth window hands its [64, 64] array whole at every point. -/
theorem right_read (c : Dev nD) (t : Fin cfg0.N) (A : Buf (Elt Ideal) ((c : Thread nD τ).loc (Pipeline.arrRef spec0 (3 : Fin cfg0.W))))
    (o k : Fin 64) :
    (((cfg0.win 3).blk t).view.read (Elt Ideal) A : Vec Ideal S64x64 .f32) (ix2 o k) = (A : S64x64.Idx → EReal) (ix2 o k) := by
  obtain ⟨e0, e1⟩ := idx_right t
  show (A : S64x64.Idx → EReal) (((cfg0.win 3).blk t).view.emb (ix2 o k)) = _
  exact congrArg A (funext fun a => Fin.ext (by
    match a with
    | ⟨0, _⟩ => show win0_3.index t (0 : Fin 2) * 64 + 1 * o.val = o.val; rw [e0]; omega
    | ⟨1, _⟩ => show win0_3.index t (1 : Fin 2) * 64 + 1 * k.val = k.val; rw [e1]; omega))

/-- The fifth window hands its one row whole at every point. -/
theorem bias_read (c : Dev nD) (t : Fin cfg0.N) (A : Buf (Elt Ideal) ((c : Thread nD τ).loc (Pipeline.arrRef spec0 (4 : Fin cfg0.W))))
    (o : Fin 64) :
    (((cfg0.win 4).blk t).view.read (Elt Ideal) A : Vec Ideal S1x64 .f32) (ix2 (0 : Fin 1) o) = (A : S1x64.Idx → EReal) (ix2 (0 : Fin 1) o) := by
  obtain ⟨e0, e1⟩ := idx_bias t
  show (A : S1x64.Idx → EReal) (((cfg0.win 4).blk t).view.emb (ix2 (0 : Fin 1) o)) = _
  exact congrArg A (funext fun a => Fin.ext (by
    match a with
    | ⟨0, _⟩ => show win0_4.index t (0 : Fin 2) * 1 + 1 * 0 = 0; rw [e0]
    | ⟨1, _⟩ => show win0_4.index t (1 : Fin 2) * 64 + 1 * o.val = o.val; rw [e1]; omega))

/-- Row `r` of the output block at point `t` lies at row `5000 t + r` of the output. -/
theorem out_row (t : Fin cfg0.N) (r : Fin 5000) (o : Fin 64) (n : Fin 50000) (hn : n.val = 5000 * t.val + r.val) :
    (((cfg0.win 5).blk t).view.emb (ix2 r o) : S50000x64.Idx) = ix2 n o := by
  obtain ⟨f0, f1⟩ := idx_out t
  exact funext fun a => Fin.ext (by
    match a with
    | ⟨0, _⟩ => show win0_5.index t (0 : Fin 2) * 5000 + 1 * r.val = n.val; rw [f0, hn]; omega
    | ⟨1, _⟩ => show win0_5.index t (1 : Fin 2) * 64 + 1 * o.val = o.val; rw [f1]; omega)

/-! ## What a point writes back -/

/-- The body's value at row `r`, channel `o` of the blocks at point `t` of ANY five arrays is `ofHalves` of those
    arrays at row `5000 t + r`. -/
theorem body_of_blocks (c : Dev nD) (t : Fin cfg0.N) (A0 : Buf (Elt Ideal) ((c : Thread nD τ).loc (Pipeline.arrRef spec0 (0 : Fin cfg0.W)))) (A1 : Buf (Elt Ideal) ((c : Thread nD τ).loc (Pipeline.arrRef spec0 (1 : Fin cfg0.W))))
    (A2 : Buf (Elt Ideal) ((c : Thread nD τ).loc (Pipeline.arrRef spec0 (2 : Fin cfg0.W)))) (A3 : Buf (Elt Ideal) ((c : Thread nD τ).loc (Pipeline.arrRef spec0 (3 : Fin cfg0.W)))) (A4 : Buf (Elt Ideal) ((c : Thread nD τ).loc (Pipeline.arrRef spec0 (4 : Fin cfg0.W))))
    (r : Fin 5000) (o : Fin 64) (n : Fin 50000) (hn : n.val = 5000 * t.val + r.val) :
    k0_pay1 (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (ix2 r o)
      = ofHalves A0 A1 A2 A3 A4 (ix2 n o) := by
  refine (Body.pay_apply (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) r o).trans ?_
  rw [ofHalves_apply]
  refine congrArg₂ (· + ·) (congrArg₂ (· + ·) (Finset.sum_congr rfl fun k _ => ?_) (Finset.sum_congr rfl fun k _ => ?_))
    (bias_read c t A4 o)
  · exact congrArg₂ (· * ·) (nodes_read c t A0 r k n hn) (left_read c t A2 o k)
  · exact congrArg₂ (· * ·) (aggr_read c t A1 r k n hn) (right_read c t A3 o k)

/-- The output as one function of the five arrays the region finds. -/
def found (c : Dev nD) : S50000x64.Idx → EReal :=
  ofHalves (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W)))

/-- What point `t` writes back is block `t` of `found`. -/
theorem flushed_eq (c : Dev nD) (t : Fin cfg0.N) :
    (dats m 0 c).flushed 5 t = ((cfg0.win 5).blk t).view.read (Elt Ideal) (found m c) := by
  rw [flushed5]
  unfold out0_5
  rw [View.canon_unit_zero hz]
  simp only [View.ld_unit_zero (S := S5000x64) hz, View.ld_unit_zero (S := S64x64) hz, View.ld_unit_zero (S := S1x64) hz]
  have ht : t.val < 10 := Nat.lt_of_lt_of_eq t.isLt (show cfg0.N = 10 from N_0)
  refine funext fun (j : S5000x64.Idx) => ?_
  obtain ⟨r, o, rfl⟩ : ∃ (r : Fin 5000) (o : Fin 64), j = ix2 r o := ⟨j 0, j 1, eq_ix2 j⟩
  obtain ⟨n, hn⟩ : ∃ n : Fin 50000, n.val = 5000 * t.val + r.val := ⟨⟨5000 * t.val + r.val, by have := r.isLt; omega⟩, rfl⟩
  show k0_pay1 (iblk m c 0 t) (iblk m c 1 t) (iblk m c 2 t) (iblk m c 3 t) (iblk m c 4 t) (ix2 r o)
    = found m c (((cfg0.win 5).blk t).view.emb (ix2 r o))
  rw [out_row t r o n hn]
  exact body_of_blocks c t (V m c (Pipeline.arrRef spec0 (0 : Fin cfg0.W))) (V m c (Pipeline.arrRef spec0 (1 : Fin cfg0.W))) (V m c (Pipeline.arrRef spec0 (2 : Fin cfg0.W))) (V m c (Pipeline.arrRef spec0 (3 : Fin cfg0.W))) (V m c (Pipeline.arrRef spec0 (4 : Fin cfg0.W))) r o n hn

end Cert.KernelIdeal.Whole

end
-- ==== Proof.Cover.lean ====
/-
  The ten row blocks tile the output: row `n` lies in the block of point `n / 5000` (`cover`). Every point writes back
  block `t` of the one function `found` (`flushed_eq`), so after the run the output array is `found` (`final`).
-/
import proofs.«144574_j5592047419417_1_alg».proof.Proof.RowBlocks

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.ConcatLinear
open Idealize.ShloMosaic.Pipeline (Dat)

variable (m : (ℓ : Loc nD τ sig) → Buf (Elt Ideal) ℓ)

/-- An index of the output is in point `t`'s block iff each coordinate is in the block's range on its axis. -/
theorem mem_blk (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v25).slice (win0_5.rect t)).set ↔ _
  rw [View.set_slice_whole, Rect.mem_set_unit]
  exact Iff.rfl

/-- Row `n` of the output is in the block of point `n / 5000`. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨f0, f1⟩ := idx_out t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [f0, ht]; omega
  | ⟨1, _⟩ =>
    show win0_5.index t (1 : Fin 2) * 64 ≤ (i 1).val ∧ (i 1).val < win0_5.index t (1 : Fin 2) * 64 + 64
    rw [f1]; omega

/-- After the run the output array is `found`. -/
theorem final (c : Dev nD) : (dats m 0 c).arrAt 5 cfg0.N = found m c :=
  (dats m 0 c).arrAt_eq_of_cover 5 (found m c) (fun t _ => flushed_eq m c t) cover

end Cert.KernelIdeal.Whole

end
-- ==== Proof.Entry.lean ====
/-
  The arrays the kernel region finds, each as a function of the program's arguments. Before the region the host
  computes the aggregated neighbour features and cuts the operands the region stages:

  * `aggr x e` — for every node the sum, over the edges `(row, col)` of `e` that end at it, of the features `x[row]` of
    the edge's start node (a gather of the start nodes' rows added into the end nodes' rows), divided by the number of
    such edges, or by 1 where there are none. It is kept as ONE term and never opened: the reference computes its
    aggregated features by the same operations in the same order, so the two terms are compared whole.
  * the left and right column halves `W[:, 0:64]` and `W[:, 64:128]` of the weight matrix, and the bias as one row.
-/
import proofs.«144574_j5592047419417_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]

/-- The mean over incoming edges of the start nodes' features, as the host operations before the region compose it
    from the node features `x0` and the edge list `x1` (row 0 the start nodes, a negative one counted from the end;
    row 1 the end nodes). -/
def aggr (x0 : (⟨S50000x64, .f32⟩ : BufTy).Contents (Elt F)) (x1 : (⟨S2x800000, .i32⟩ : BufTy).Contents (Elt F)) :
    (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0
        (shapeCast _ (extractStridedSlice S1x800000 ![1, 0] x1 slices_S2x800000_S1x800000_1_0) shapeCasts_S1x800000_S800000))
      (Host.gather gather_S50000x64_S800000x1_S800000x64_1_0_n_n_0_1_164 x0
        (broadcastInDim S800000x1 ![0] bcast_S800000_S800000x1_0
          (select
            (cmpi .slt
              (shapeCast _ (extractStridedSlice S1x800000 ![0, 0] x1 slices_S2x800000_S1x800000_0_0) shapeCasts_S1x800000_S800000)
              (broadcastInDim S800000 ![] bcast_S_S800000 (constantI S_ 32 0#32)))
            (addi
              (shapeCast _ (extractStridedSlice S1x800000 ![0, 0] x1 slices_S2x800000_S1x800000_0_0) shapeCasts_S1x800000_S800000)
              (broadcastInDim S800000 ![] bcast_S_S800000 (constantI S_ 32 50000#32)))
            (shapeCast _ (extractStridedSlice S1x800000 ![0, 0] x1 slices_S2x800000_S1x800000_0_0) shapeCasts_S1x800000_S800000)))))
    (broadcastInDim S50000x64 ![0, 1] bcast_S50000x1_S50000x64_0_1
      (broadcastInDim S50000x1 ![0] bcast_S50000_S50000x1_0
        (maximumf
          (broadcastInDim S50000 ![] bcast_S_S50000 (id (constant S_ .f32 0x3F800000#32)))
          (Host.scatterAdd scatter_S50000_S800000x1_S800000_n_0_0_1
            (broadcastInDim S50000 ![] bcast_S_S50000 (constant S_ .f32 0x00000000#32))
            (broadcastInDim S800000x1 ![0] bcast_S800000_S800000x1_0
              (shapeCast _ (extractStridedSlice S1x800000 ![1, 0] x1 slices_S2x800000_S1x800000_1_0) shapeCasts_S1x800000_S800000))
            (broadcastInDim S800000 ![] bcast_S_S800000 (constant S_ .f32 0x3F800000#32))))))

variable (m : (ℓ : Loc nD τ sig) → Buf (Elt F) ℓ)

set_option maxHeartbeats 2000000 in
/-- The second staged array is the aggregated features of the arguments. -/
theorem V_aggr (c : Dev nD) :
    V m c main_v21 = aggr (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  unfold aggr
  after_results_simp <;> rfl

set_option maxHeartbeats 2000000 in
/-- The third staged array is the left column half of the weight matrix. -/
theorem V_left (c : Dev nD) :
    V m c main_v22 = extractStridedSlice S64x64 ![0, 0] (m ((c : Thread nD τ).loc main_arg2)) slices_S64x128_S64x64_0_0 := by
  dsimp only [V]
  simp only [hostOps0, hostOps0_1, hostOps0_2, List.flatten_cons, List.flatten_nil, List.append_nil, List.cons_append,
    List.nil_append]
  after_results_simp <;> rfl

set_option maxHeartbeats 2000000 in
/-- The fourth staged array is the right column half of the weight matrix. -/
theorem V_right (c : Dev nD) :
    V m c main_v23 = extractStridedSlice S64x64 ![0, 64] (m ((c : Thread nD τ).loc main_arg2)) slices_S64x128_S64x64_0_64 := by
  dsimp only [V]
  simp only [hostOps0, hostOps0_1, hostOps0_2, List.flatten_cons, List.flatten_nil, List.append_nil, List.cons_append,
    List.nil_append]
  after_results_simp <;> rfl

set_option maxHeartbeats 2000000 in
/-- The fifth staged array is the bias as one row. -/
theorem V_bias (c : Dev nD) :
    V m c main_v24 = shapeCast _ (m ((c : Thread nD τ).loc main_arg3)) shapeCasts_S64_S1x64 := by
  dsimp only [V]
  simp only [hostOps0, hostOps0_1, hostOps0_2, List.flatten_cons, List.flatten_nil, List.append_nil, List.cons_append,
    List.nil_append]
  after_results_simp <;> rfl

end Cert.KernelIdeal.Entry

end
-- ==== Proof.KernelValue.lean ====
/-
  The kernel's result as a function of the arguments. The five arrays the region finds are the node features, their
  aggregation over incoming edges, the two column halves `W[:, 0:64]` and `W[:, 64:128]` of the weight matrix and the bias
  as one row (the Entry module), so the function `found` of the found arrays is `ConcatLinear.ofWhole` of the arguments
  and the aggregated features (`found_eq`): a column `k` of the left half is column `k` of `W`, a column `k` of the right
  half is column `64 + k`, and the row's entry `o` is the bias at `o`. `run` restates the kernel's run with that result.
-/
import proofs.«144574_j5592047419417_1_alg».proof.Proof.Cover
import proofs.«144574_j5592047419417_1_alg».proof.Proof.Entry
import Idealize.ShloMosaic.Lib.ValueLayout

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.ConcatLinear
open Idealize.ShloMosaic.Pipeline (Dat)

variable (m : (ℓ : Loc nD τ sig) → Buf (Elt Ideal) ℓ) (ρ : Dev nD → PrngReg)

/-- The left half's column `k` is the weight matrix's column `k`. -/
theorem left_apply (W : S64x128.Idx → EReal) (o k : Fin 64) :
    extractStridedSlice S64x64 ![0, 0] W slices_S64x128_S64x64_0_0 (ix2 o k) = W (ix2 o (lo k)) :=
  slice2_axis1_apply 0 W slices_S64x128_S64x64_0_0 o k (lo k) (Nat.zero_add _).symm

/-- The right half's column `k` is the weight matrix's column `64 + k`. -/
theorem right_apply (W : S64x128.Idx → EReal) (o k : Fin 64) :
    extractStridedSlice S64x64 ![0, 64] W slices_S64x128_S64x64_0_64 (ix2 o k) = W (ix2 o (hi k)) :=
  slice2_axis1_apply 64 W slices_S64x128_S64x64_0_64 o k (hi k) rfl

/-- The bias row's entry `o` is the bias at `o`. -/
theorem row_apply (b : S64.Idx → EReal) (o : Fin 64) :
    shapeCast S1x64 b shapeCasts_S64_S1x64 (ix2 (0 : Fin 1) o) = b (ix1 o) :=
  shapeCast_apply b shapeCasts_S64_S1x64 (ix2 (0 : Fin 1) o) (ix1 o) (by
    rw [Shape.rowMajor_val_one, Shape.rowMajor_val_two]
    show o.val = 0 * 64 + o.val
    omega)

/-- `found` in terms of the arguments. -/
theorem found_eq (c : Dev nD) :
    found m c = ofWhole (m ((c : Thread nD τ).loc main_arg0))
      (Entry.aggr (m ((c : Thread nD τ).loc main_arg0)) (m ((c : Thread nD τ).loc main_arg1)))
      (m ((c : Thread nD τ).loc main_arg2)) (m ((c : Thread nD τ).loc main_arg3)) := by
  -- the five arrays the windows stage, as the Entry module reads them off the host's operations
  have h0 : V m c (Pipeline.arrRef spec0 (0 : Fin cfg0.W)) = m ((c : Thread nD τ).loc main_arg0) := V_main_arg0 m c
  have h1 : V m c (Pipeline.arrRef spec0 (1 : Fin cfg0.W))
      = Entry.aggr (m ((c : Thread nD τ).loc main_arg0)) (m ((c : Thread nD τ).loc main_arg1)) := Entry.V_aggr m c
  have h2 : V m c (Pipeline.arrRef spec0 (2 : Fin cfg0.W))
      = extractStridedSlice S64x64 ![0, 0] (m ((c : Thread nD τ).loc main_arg2)) slices_S64x128_S64x64_0_0 := Entry.V_left m c
  have h3 : V m c (Pipeline.arrRef spec0 (3 : Fin cfg0.W))
      = extractStridedSlice S64x64 ![0, 64] (m ((c : Thread nD τ).loc main_arg2)) slices_S64x128_S64x64_0_64 := Entry.V_right m c
  have h4 : V m c (Pipeline.arrRef spec0 (4 : Fin cfg0.W))
      = shapeCast _ (m ((c : Thread nD τ).loc main_arg3)) shapeCasts_S64_S1x64 := Entry.V_bias m c
  unfold found
  rw [h0, h1, h2, h3, h4]
  exact ofHalves_eq_ofWhole _ _ _ _ _ _ _ (left_apply _) (right_apply _) (row_apply _)

/-- The kernel's run, read: the output array at `ofWhole` of the arguments and the aggregated features, the arguments
    unchanged. -/
theorem run : θ_run defs (onTc (τ := τ) (main (F := Ideal))) ⟨m, fun _ => 0, ρ⟩ fun r => ∀ c : Dev nD,
      r.2.mem ((c : Thread nD τ).loc main_v25) = ofWhole (m ((c : Thread nD τ).loc main_arg0))
        (Entry.aggr (m ((c : Thread nD τ).loc main_arg0)) (m ((c : Thread nD τ).loc main_arg1)))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (found_eq m c)), (h c).2⟩)
    (run_blocks m ρ)

end Cert.KernelIdeal.Whole

end
-- ==== Proof.RefValue.lean ====
/-
  The reference's result is `ConcatLinear.ofWhole` of the node features, its own aggregated features, the weight matrix
  and the bias. The reference multiplies the concatenation `[x | a]` (128 columns) by the transposed weight matrix and
  adds the bias broadcast over the rows:

      out[n, o] = Σ_{k<128} [x | a][n, k] · Wᵀ[k, o]  +  b[o].

  Column `k < 64` of the concatenation is column `k` of `x`, column `64 + k` is column `k` of `a`, and `Wᵀ[k, o] = W[o, k]`;
  splitting the sum over the 128 columns into its two halves (`ConcatLinear.sum_split`) gives the two half products.
-/
import proofs.«144574_j5592047419417_1_alg».proof.Proof.Gen.ReferenceIdeal.Read
import proofs.«144574_j5592047419417_1_alg».proof.Proof.ConcatLinear
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Cert.ConcatLinear

/-- A left column of the concatenation `[x | a]` is the column of `x`. -/
theorem cat_lo (x0 : (⟨S50000x64, .f32⟩ : BufTy).Contents (Elt Ideal)) (x1 : (⟨S2x800000, .i32⟩ : BufTy).Contents (Elt Ideal))
    (n : Fin 50000) (k : Fin 64) :
    val_main_v22 (F := Ideal) x0 x1 (ix2 n (lo k)) = x0 (ix2 n k) := by
  unfold val_main_v22
  exact concatenate_pair_apply_left (1 : Fin 2) x0 (val_main_v21 (F := Ideal) x0 x1)
    concatenates_S50000x64_S50000x64_S50000x128_d1 (ix2 n (lo k)) rfl (ix2 n k) (fun b => match b with
      | ⟨0, _⟩ => rfl
      | ⟨1, _⟩ => rfl)

/-- A right column `64 + k` of the concatenation is column `k` of the aggregated features. -/
theorem cat_hi (x0 : (⟨S50000x64, .f32⟩ : BufTy).Contents (Elt Ideal)) (x1 : (⟨S2x800000, .i32⟩ : BufTy).Contents (Elt Ideal))
    (n : Fin 50000) (k : Fin 64) :
    val_main_v22 (F := Ideal) x0 x1 (ix2 n (hi k)) = val_main_v21 (F := Ideal) x0 x1 (ix2 n k) := by
  unfold val_main_v22
  exact concatenate_pair_apply_right (1 : Fin 2) x0 (val_main_v21 (F := Ideal) x0 x1)
    concatenates_S50000x64_S50000x64_S50000x128_d1 (ix2 n (hi k)) rfl rfl (ix2 n k)
    (fun b hb => match b, hb with
      | ⟨0, _⟩, _ => rfl
      | ⟨1, _⟩, hb => absurd rfl hb)
    (by show k.val + 64 = 64 + k.val; omega)

/-- The transposed weight matrix at `(k, o)` is the weight matrix at `(o, k)`. -/
theorem wT_apply (x2 : (⟨S64x128, .f32⟩ : BufTy).Contents (Elt Ideal)) (k : Fin 128) (o : Fin 64) :
    val_main_v23 (F := Ideal) x2 (ix2 k o) = x2 (ix2 o k) := by
  rw [val_main_v23_apply]
  exact congrArg x2 (funext fun a => Fin.ext (by
    match a with
    | ⟨0, _⟩ => rfl
    | ⟨1, _⟩ => rfl))

/-- The bias broadcast over the rows, at `(n, o)`, is the bias at `o`. -/
theorem bias_apply (x3 : (⟨S64, .f32⟩ : BufTy).Contents (Elt Ideal)) (n : Fin 50000) (o : Fin 64) :
    val_main_v26 (F := Ideal) x3 (ix2 n o) = x3 (ix1 o) := by
  rw [val_main_v26_apply, val_main_v25_apply]
  exact congrArg x3 (funext fun a => Fin.ext (by
    match a with
    | ⟨0, _⟩ => rfl))

/-- The reference's result is `ofWhole` of the arguments and the reference's aggregated features. -/
theorem result_eq (x0 : (⟨S50000x64, .f32⟩ : BufTy).Contents (Elt Ideal)) (x1 : (⟨S2x800000, .i32⟩ : BufTy).Contents (Elt Ideal))
    (x2 : (⟨S64x128, .f32⟩ : BufTy).Contents (Elt Ideal)) (x3 : (⟨S64, .f32⟩ : BufTy).Contents (Elt Ideal)) :
    val_main_v27 (F := Ideal) x0 x1 x2 x3 = ofWhole x0 (val_main_v21 (F := Ideal) x0 x1) x2 x3 := by
  funext i
  obtain ⟨n, o, rfl⟩ : ∃ (n : Fin 50000) (o : Fin 64), i = ix2 n o := ⟨i 0, i 1, eq_ix2 i⟩
  rw [val_main_v27_apply, val_main_v24_apply, bias_apply, ofWhole_apply, Ideal.addf_def, sum_split]
  have el : ∀ k : Fin 128, lidx_main_v24 (ix2 n o) k = ix2 n k := fun k => funext fun a => Fin.ext (by
    match a with
    | ⟨0, _⟩ => rfl
    | ⟨1, _⟩ => rfl)
  have er : ∀ k : Fin 128, ridx_main_v24 (ix2 n o) k = ix2 k o := fun k => funext fun a => Fin.ext (by
    match a with
    | ⟨0, _⟩ => rfl
    | ⟨1, _⟩ => rfl)
  refine congrArg (· + x3 (ix1 o)) (congrArg₂ (· + ·) ?_ ?_)
  · exact Finset.sum_congr rfl fun k _ => by rw [el, er, cat_lo, wT_apply]
  · exact Finset.sum_congr rfl fun k _ => by rw [el, er, cat_hi, wT_apply]

end Cert.ReferenceIdeal.RefValue

end
-- ==== Proof.lean ====
/-
  The kernel computes a GraphSAGE-style layer: for each of 50000 nodes, the mean `a` of the features of the nodes with
  an edge into it (on the host: a gather of the start nodes' rows, added into the end nodes' rows, divided by the
  number of incoming edges or by 1), then the linear map of the concatenation `[x | a]` by the weight matrix `W`
  [64, 128] plus the bias `b`. The reference forms `[x | a] · Wᵀ + b` as one product over 128 columns; the kernel splits
  `W` into its column halves and, row block by row block (ten blocks of 5000 nodes), adds the two half products
  `x · W[:, 0:64]ᵀ` and `a · W[:, 64:128]ᵀ` and the bias. On the extended reals, where a change of float format is the
  identity and a block product into a zero accumulator is the plain sum of products, both are

      out[n, o] = (Σ_{k<64} x[n, k] · W[o, k]  +  Σ_{k<64} a[n, k] · W[o, 64 + k])  +  b[o]

  (`ConcatLinear.ofWhole`): a sum over 128 columns is the sum over the left 64 plus the sum over the right 64, in any
  commutative monoid, so the inputs' finiteness is not used. Both programs compute `a` by the same host operations in
  the same order, so the two terms for `a` are one term (`aggr_eq`) and are never opened.

  The modules: ConcatLinear (the function and the split of the sum); Payload (the body's value at an index of a row
  block); Entry (the arrays the region finds, from the host's operations); RowBlocks, Cover, KernelValue (what a grid
  point writes back, the blocks tile the array, the kernel's result as `ofWhole`); RefValue (the reference's result as
  `ofWhole`). The frames are the generated ones; no rewrite was applied in idealizing the kernel, so `preserves` is trivial.
-/
import proofs.«144574_j5592047419417_1_alg».proof.Defs
import proofs.«144574_j5592047419417_1_alg».proof.Proof.Gen.Kernel
import proofs.«144574_j5592047419417_1_alg».proof.Proof.Gen.Kernel.Skeleton
import proofs.«144574_j5592047419417_1_alg».proof.Proof.Gen.Kernel.Launch
import proofs.«144574_j5592047419417_1_alg».proof.Proof.Gen.Kernel.Points
import proofs.«144574_j5592047419417_1_alg».proof.Proof.Gen.Kernel.Frame
import proofs.«144574_j5592047419417_1_alg».proof.Proof.Gen.KernelIdeal
import proofs.«144574_j5592047419417_1_alg».proof.Proof.Gen.KernelIdeal.Skeleton
import proofs.«144574_j5592047419417_1_alg».proof.Proof.Gen.KernelIdeal.Launch
import proofs.«144574_j5592047419417_1_alg».proof.Proof.Gen.KernelIdeal.Points
import proofs.«144574_j5592047419417_1_alg».proof.Proof.Gen.KernelIdeal.Frame
import proofs.«144574_j5592047419417_1_alg».proof.Proof.Gen.ReferenceIdeal
import proofs.«144574_j5592047419417_1_alg».proof.Proof.Gen.Pre_finite_inputs
import proofs.«144574_j5592047419417_1_alg».proof.Proof.Gen.KernelIdeal.Value
import proofs.«144574_j5592047419417_1_alg».proof.Proof.Gen.ReferenceIdeal.Run
import proofs.«144574_j5592047419417_1_alg».proof.Proof.Gen.ReferenceIdeal.Read
import proofs.«144574_j5592047419417_1_alg».proof.Proof.KernelValue
import proofs.«144574_j5592047419417_1_alg».proof.Proof.RefValue
import Idealize.ShloMosaic.Adequacy
import Idealize.ShloMosaic.Init

noncomputable section

namespace Cert.Proof

open Idealize.ShloMosaic Idealize.SL.Sem Cert.Kernel

/-- Both programs aggregate the neighbours' features by the same host operations, in the same order, on the same
    shapes: the kernel's term for the aggregated features and the reference's are one term. -/
theorem aggr_eq (x0 : (⟨Cert.KernelIdeal.S50000x64, .f32⟩ : BufTy).Contents (Elt Ideal))
    (x1 : (⟨Cert.KernelIdeal.S2x800000, .i32⟩ : BufTy).Contents (Elt Ideal)) :
    Cert.KernelIdeal.Entry.aggr (F := Ideal) x0 x1 = Cert.ReferenceIdeal.Read.val_main_v21 (F := Ideal) x0 x1 := rfl

/-- The kernel as printed runs and leaves its arguments unchanged: the generated frame. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is host operations only: its generated run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- On the extended reals, from memories that agree on the arguments, the kernel's output array and the reference's
    result are `ConcatLinear.ofWhole` of the same node features, the same aggregated features, the same weights and bias. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, ← aggr_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
